-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x8192x4096 .f32) (main_arg1 : FVec F S8192x4096 .f32) (main_arg2 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x8192x4096 : Shape := ⟨3, ![4, 8192, 4096]⟩
abbrev S8192x4096 : Shape := ⟨2, ![8192, 4096]⟩
abbrev S4096 : Shape := ⟨1, ![4096]⟩
abbrev S4x128x4096 : Shape := ⟨3, ![4, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 4
  | .vmem => 7
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S8192x4096, .f32⟩
  | .local _ .vmem, ⟨0, _⟩ => ⟨S4x128x4096, .f32⟩
  | .local _ .vmem, ⟨1, _⟩ => ⟨S4x128x4096, .f32⟩
  | .local _ .vmem, ⟨2, _⟩ => ⟨S128x4096, .f32⟩
  | .local _ .vmem, ⟨3, _⟩ => ⟨S128x4096, .f32⟩
  | .local _ .vmem, ⟨4, _⟩ => ⟨S4096, .f32⟩
  | .local _ .vmem, ⟨5, _⟩ => ⟨S128x4096, .f32⟩
  | .local _ .vmem, ⟨6, _⟩ => ⟨S128x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4x128x4096_S4x128x4096_0_0_0 : ∀ a, (![0, 0, 0] : Fin 3 → Nat) a + S4x128x4096.size a ≤ S4x128x4096.size a
  h_S4x128x4096 : 0 < S4x128x4096.numel
  inb_S128x4096_S128x4096_0_0 : ∀ a, (![0, 0] : Fin 2 → Nat) a + S128x4096.size a ≤ S128x4096.size a
  h_S128x4096 : 0 < S128x4096.numel
  reduces_S4x128x4096_S128x4096 : S4x128x4096.Reduces [0] S128x4096
  reduces_S128x4096_S128 : S128x4096.Reduces [1] S128
  shapeCasts_S128_S128x1 : S128.ShapeCasts S128x1
  broadcasts_S128x1_S128x4096 : S128x1.Broadcasts S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x8192x4096.size a
  hwx0_0 : ∀ i : grid0.Coords, EltTy.bits .f32 = 32 ∨ (Rect.block (s := S4x8192x4096) S4x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x8192x4096_S8192x4096_d0 : S4x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.Spec.lean ====
/-
  Residual add and RMS normalisation of a sum of four partial tensors, as ONE function of the three argument
  arrays over the extended reals.

  For hs : [4, 8192, 4096], res : [8192, 4096], w : [4096]:
      x(r, c)   = (∑ p < 4, hs(p, r, c)) + res(r, c)                       (`summed`)
      s(r)      = rsqrt ((∑ k < 4096, x(r, k) · x(r, k)) / 4096 + ε)       (`scale`)
      out(r, c) = x(r, c) · s(r) · w(c)                                     (`normed`)
  where 4096 and ε are the two f32 words that both programs carry (0x45800000 and 0x358637BD); the same word
  stands on both sides, so neither is ever evaluated. Every operation is the extended reals' own: no law that
  needs finiteness (distributivity, cancellation) is used anywhere, only that a sum started from 0 is the sum.
-/
import Idealize.ShloMosaic.PureOps.Ideal
import Idealize.ShloMosaic.PureOps.Ideal.Laws
import Idealize.ShloMosaic.Lib.ValueIdx

noncomputable section

open scoped BigOperators

namespace Cert.AddRmsNorm

open Idealize.ShloMosaic Idealize.ShloMosaic.ValueIdx

/-- The four partial tensors, [4, 8192, 4096]. -/
abbrev Partials : Type := FVec Ideal (⟨3, ![4, 8192, 4096]⟩ : Shape) .f32
/-- A [8192, 4096] array: the residual, and the result. -/
abbrev Rows : Type := FVec Ideal (⟨2, ![8192, 4096]⟩ : Shape) .f32
/-- The weight vector, [4096]. -/
abbrev Weights : Type := FVec Ideal (⟨1, ![4096]⟩ : Shape) .f32

/-- `x(r, c)`: the four partial tensors added at (r, c), plus the residual there. -/
def summed (hs : Partials) (res : Rows) (r : Fin 8192) (c : Fin 4096) : EReal :=
  (∑ p : Fin 4, hs (ix3 p r c)) + res (ix2 r c)

/-- `s(r)`: the reciprocal square root of row `r`'s mean square plus ε. -/
def scale (hs : Partials) (res : Rows) (r : Fin 8192) : EReal :=
  Ideal.rsqrt (Ideal.div (∑ k : Fin 4096, summed hs res r k * summed hs res r k) (Ideal.ofBits .f32 0x45800000#32)
    + Ideal.ofBits .f32 0x358637BD#32)

/-- The result array: each entry of `x` times its row's scale times its column's weight. -/
def normed (hs : Partials) (res : Rows) (w : Weights) : Rows := fun i =>
  summed hs res (i 0) (i 1) * scale hs res (i 0) * w (ix1 (i 1))

end Cert.AddRmsNorm

end
-- ==== Proof.RefSpec.lean ====
/-
  The reference computes `normed`: its nineteen host operations, read one at a time at an index, are the
  specification's formula. The two host sums start from the constant 0, which adds nothing; the host's quotient
  and reciprocal square root are the extended reals' own; the broadcasts only re-index.
-/
import proofs.«101988_j12592844112269_2_alg».proof.Proof.Gen.ReferenceIdeal.Read
import proofs.«101988_j12592844112269_2_alg».proof.Proof.Spec

noncomputable section

open scoped BigOperators

namespace Cert.AddRmsNorm.Ref

open Cert.ReferenceIdeal Cert.ReferenceIdeal.Gen Cert.ReferenceIdeal.Read
open Idealize.ShloMosaic Idealize.ShloMosaic.ValueIdx Cert.AddRmsNorm

/-- The reference's `x`: the sum over the leading axis from 0, plus the residual, at the entry (r, c). -/
theorem x_apply (hs : FVec Ideal S4x8192x4096 .f32) (res : FVec Ideal S8192x4096 .f32) (r : Fin 8192) (c : Fin 4096) :
    val_main_v1 (F := Ideal) hs res (ix2 r c) = summed hs res r c := by
  have e0 : ∀ k : Fin 4, idx_main_v0 (ix2 r c) k = ix3 k r c := fun k =>
    funext fun a => Fin.ext (by match a with | ⟨0, _⟩ => rfl | ⟨1, _⟩ => rfl | ⟨2, _⟩ => rfl)
  rw [val_main_v1_apply, val_main_v0_apply, val_main_cst_apply]
  simp only [e0, Ideal.addf_def, Ideal.ofBits_def, Ideal.ofBits_zero_f32, zero_add]
  rfl

/-- The reference's result is `normed` of its three arguments. -/
theorem result_eq (hs : FVec Ideal S4x8192x4096 .f32) (res : FVec Ideal S8192x4096 .f32) (w : FVec Ideal S4096 .f32) :
    val_main_v14 (F := Ideal) hs res w = normed hs res w := by
  funext i
  obtain ⟨r, c, rfl⟩ : ∃ (r : Fin 8192) (c : Fin 4096), i = ix2 r c := ⟨i 0, i 1, eq_ix2 i⟩
  have e3 : ∀ k : Fin 4096, idx_main_v3 (idx_main_v4 (idx_main_v10 (ix2 r c))) k = ix2 r k := fun k =>
    funext fun a => Fin.ext (by match a with | ⟨0, _⟩ => rfl | ⟨1, _⟩ => rfl)
  have e12 : idx_main_v12 (idx_main_v13 (ix2 r c)) = ix1 c :=
    funext fun a => Fin.ext (by match a with | ⟨0, _⟩ => rfl)
  rw [val_main_v14_apply, val_main_v11_apply, val_main_v13_apply, val_main_v12_apply, val_main_v10_apply,
    val_main_v9_apply, val_main_v8_apply, val_main_v6_apply, val_main_v7_apply, val_main_cst_2_apply,
    val_main_v5_apply, val_main_cst_1_apply, val_main_v4_apply, val_main_v3_apply, val_main_cst_0_apply]
  simp only [val_main_v2_apply, x_apply, e3, e12, Ideal.mulf_def, Ideal.addf_def, Ideal.hostDivf_def,
    Ideal.hostUnary_rsqrt_def, Ideal.ofBits_def, Ideal.ofBits_zero_f32, zero_add]
  rfl

end Cert.AddRmsNorm.Ref

end
-- ==== Proof.Block.lean ====
/-
  One grid point of the kernel, over variables. A point loads a [4, 128, 4096] block of the partial tensors, a
  [128, 4096] block of the residual and the whole weight vector, and stores a [128, 4096] block. If the loaded
  blocks are rows o … o + 127 of the argument arrays, then the stored block is rows o … o + 127 of `normed`:
  every row of the normalisation lies inside one block, so the sum over the four partial tensors and the sum of
  squares along a row are the same sums, re-indexed by the row offset. The kernel's two reductions start from the
  neutral word 0 and are plain sums over the reduced axis.
-/
import proofs.«101988_j12592844112269_2_alg».proof.Proof.Gen.KernelIdeal.Value
import proofs.«101988_j12592844112269_2_alg».proof.Proof.Spec
import Idealize.ShloMosaic.PureOps.Ideal.Laws
import Idealize.ShloMosaic.Lib.ValueIdx

noncomputable section

open scoped BigOperators

namespace Cert.AddRmsNorm.Block

open Cert.KernelIdeal Cert.KernelIdeal.Gen Cert.KernelIdeal.Value
open Idealize.ShloMosaic Idealize.ShloMosaic.ValueIdx Cert.AddRmsNorm

/-- Row `r` of a block whose first row is row `o` of the array. -/
def row (o : Nat) (ho : o + 128 ≤ 8192) (r : Fin 128) : Fin 8192 := ⟨o + r.val, by have := r.isLt; omega⟩

variable (P0 : FVec Ideal S4x128x4096 .f32) (P1 : FVec Ideal S128x4096 .f32) (P2 : FVec Ideal S4096 .f32)

/-- The block's four partial tensors added, entry by entry. -/
abbrev partialSum : FVec Ideal S128x4096 .f32 :=
  multiReduction .add [0] S128x4096 P0 0x00000000#32 reduces_S4x128x4096_S128x4096 (.inl rfl) rfl

/-- The block's sum of squares of `x` along each row. -/
abbrev squareSum : FVec Ideal S128 .f32 :=
  multiReduction .add [1] S128 (mulf (addf (partialSum P0) P1) (addf (partialSum P0) P1)) 0x00000000#32
    reduces_S128x4096_S128 (.inl rfl) rfl

/-- The reduction over the leading axis, at (r, c), is the sum over the four partial tensors there. -/
theorem partialSum_apply (r : Fin 128) (c : Fin 4096) : partialSum P0 (ix2 r c) = ∑ p : Fin 4, P0 (ix3 p r c) := by
  refine (Ideal.multiReduction_add_single P0 0x00000000#32 reduces_S4x128x4096_S128x4096 (.inl rfl) rfl (ix2 r c)).trans ?_
  refine Finset.sum_congr rfl fun p _ => ?_
  exact congrArg P0 (funext fun a => Fin.ext (by match a with | ⟨0, _⟩ => rfl | ⟨1, _⟩ => rfl | ⟨2, _⟩ => rfl))

variable (hs : Partials) (res : Rows) (w : Weights) (o : Nat) (ho : o + 128 ≤ 8192)
variable (h0 : ∀ (p : Fin 4) (r : Fin 128) (c : Fin 4096), P0 (ix3 p r c) = hs (ix3 p (row o ho r) c))
variable (h1 : ∀ (r : Fin 128) (c : Fin 4096), P1 (ix2 r c) = res (ix2 (row o ho r) c))
variable (h2 : ∀ c : Fin 4096, P2 (ix1 c) = w (ix1 c))

include h0 h1 in
/-- The block's `x` at (r, c) is the arrays' `x` at (o + r, c). -/
theorem x_apply (r : Fin 128) (c : Fin 4096) :
    addf (partialSum P0) P1 (ix2 r c) = summed hs res (row o ho r) c := by
  show partialSum P0 (ix2 r c) + P1 (ix2 r c) = _
  rw [partialSum_apply, h1]
  unfold summed
  exact congrArg (· + _) (Finset.sum_congr rfl fun p _ => h0 p r c)

include h0 h1 in
/-- The block's sum of squares along row `r` is the arrays' along row o + r. -/
theorem squareSum_apply (r : Fin 128) :
    squareSum P0 P1 (ix1 r) = ∑ k : Fin 4096, summed hs res (row o ho r) k * summed hs res (row o ho r) k := by
  refine (Ideal.multiReduction_add_single (mulf (addf (partialSum P0) P1) (addf (partialSum P0) P1)) 0x00000000#32
    reduces_S128x4096_S128 (.inl rfl) rfl (ix1 r)).trans ?_
  refine Finset.sum_congr rfl fun k _ => ?_
  have e : reduces_S128x4096_S128.lift (ix1 r) k = ix2 r k :=
    funext fun a => Fin.ext (by match a with | ⟨0, _⟩ => rfl | ⟨1, _⟩ => rfl)
  refine (congrArg (mulf (addf (partialSum P0) P1) (addf (partialSum P0) P1)) e).trans ?_
  show addf (partialSum P0) P1 (ix2 r k) * addf (partialSum P0) P1 (ix2 r k) = _
  rw [x_apply P0 P1 hs res o ho h0 h1 r k]

include h0 h1 h2 in
/-- THE POINT'S BLOCK: what the body leaves at (r, c) is `normed` at (o + r, c). -/
theorem stored_apply (r : Fin 128) (c : Fin 4096) :
    E3 (F := Ideal) P0 P1 P2 (ix2 r c) = normed hs res w (ix2 (row o ho r) c) := by
  have i0 : ix3_0 (ix2 r c) = ix2 r c := funext fun a => Fin.ext (by match a with | ⟨0, _⟩ => rfl | ⟨1, _⟩ => rfl)
  have i1 : ix3_1 (ix2 r c) = ix2 r c := funext fun a => Fin.ext (by match a with | ⟨0, _⟩ => rfl | ⟨1, _⟩ => rfl)
  have i2 : ix3_2 (ix2 r c) = ix1 r := funext fun a => Fin.ext (by match a with | ⟨0, _⟩ => rfl)
  have i3 : ix3_3 (ix2 r c) = ix1 c := funext fun a => Fin.ext (by match a with | ⟨0, _⟩ => rfl)
  show (addf (partialSum P0) P1 (ix3_0 (ix2 r c))) * Ideal.rsqrt (Ideal.div (squareSum P0 P1 (ix3_2 (ix2 r c)))
      (Ideal.ofBits .f32 0x45800000#32) + Ideal.ofBits .f32 0x358637BD#32) * P2 (ix3_3 (ix2 r c)) = _
  rw [i0, i2, i3, x_apply P0 P1 hs res o ho h0 h1 r c, squareSum_apply P0 P1 hs res o ho h0 h1 r, h2]
  rfl

end Cert.AddRmsNorm.Block

end
-- ==== Proof.KernelValue.lean ====
/-
  From blocks to the array. Grid point t (of 64) stages rows 128·t … 128·t + 127 of the partial tensors and of the
  residual, and the whole weight vector, and writes back rows 128·t … 128·t + 127 of the result. What it writes
  is those rows of `normed` of the argument arrays (the per-point statement, instantiated at the point's blocks);
  the 64 row blocks cover the [8192, 4096] result — row r lies in block r / 128 — so after the run the result
  array is `normed` of the arguments.
-/
import proofs.«101988_j12592844112269_2_alg».proof.Proof.Gen.KernelIdeal.Value
import proofs.«101988_j12592844112269_2_alg».proof.Proof.Block
import Idealize.ShloMosaic.Lib.Pipeline.Value

noncomputable section

open Idealize.ShloMosaic Idealize.ShloMosaic.TcCoe Idealize.SL.Sem
open Idealize.ShloMosaic.Pipeline (Dat)

namespace Cert.AddRmsNorm.Kernel

open Cert.KernelIdeal Cert.KernelIdeal.Gen Cert.KernelIdeal.Value
open Idealize.ShloMosaic.ValueIdx Cert.AddRmsNorm

variable (m : (ℓ : Loc nD τ sig) → Buf (Elt Ideal) ℓ) (ρ : Dev nD → PrngReg)

/-- The result array: `normed` of the three argument arrays as launched. -/
abbrev result (c : Dev nD) : Buf (Elt Ideal) ((c : Thread nD τ).loc main_v0) :=
  normed (m ((c : Thread nD τ).loc main_arg0)) (m ((c : Thread nD τ).loc main_arg1)) (m ((c : Thread nD τ).loc main_arg2))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The four index maps over the grid: point t takes row block t of the partial tensors, of the residual and of the
    result, all four partial tensors and all columns, and the one block of the weight vector. -/
theorem block_indices : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 64 := by
  have h : t.val < grid0.N := t.isLt
  rw [N_0] at h
  exact h

theorem rows_in (t : Fin cfg0.N) : 128 * t.val + 128 ≤ 8192 := by
  have := point_lt t
  omega

/-- The partial tensors' block at point t is rows 128·t … of the argument. -/
theorem partials_block (c : Dev nD) (t : Fin cfg0.N) (p : Fin 4) (r : Fin 128) (k : Fin 4096) :
    (iblk m c 0 t : Vec Ideal S4x128x4096 .f32) (ix3 p r k)
      = (m ((c : Thread nD τ).loc main_arg0) : S4x8192x4096.Idx → Elt Ideal .f32) (ix3 p (Block.row (128 * t.val) (rows_in t) r) k) := by
  obtain ⟨e0, e1, e2, -⟩ := block_indices t
  unfold iblk
  rw [View.read_apply]
  show V m c main_arg0 _ = m (c.tc.loc main_arg0) _
  unfold V
  congr 1
  funext a
  apply Fin.ext
  match a with
  | ⟨0, _⟩ => show win0_0.index t (0 : Fin 3) * 4 + 1 * p.val = p.val; rw [e0]; omega
  | ⟨1, _⟩ => show win0_0.index t (1 : Fin 3) * 128 + 1 * r.val = 128 * t.val + r.val; rw [e1]; omega
  | ⟨2, _⟩ => show win0_0.index t (2 : Fin 3) * 4096 + 1 * k.val = k.val; rw [e2]; omega

/-- The residual's block at point t is rows 128·t … of the argument. -/
theorem residual_block (c : Dev nD) (t : Fin cfg0.N) (r : Fin 128) (k : Fin 4096) :
    (iblk m c 1 t : Vec Ideal S128x4096 .f32) (ix2 r k)
      = (m ((c : Thread nD τ).loc main_arg1) : S8192x4096.Idx → Elt Ideal .f32) (ix2 (Block.row (128 * t.val) (rows_in t) r) k) := by
  obtain ⟨-, -, -, e0, e1, -⟩ := block_indices t
  unfold iblk
  rw [View.read_apply]
  show V m c main_arg1 _ = m (c.tc.loc main_arg1) _
  unfold V
  congr 1
  funext a
  apply Fin.ext
  match a with
  | ⟨0, _⟩ => show win0_1.index t (0 : Fin 2) * 128 + 1 * r.val = 128 * t.val + r.val; rw [e0]; omega
  | ⟨1, _⟩ => show win0_1.index t (1 : Fin 2) * 4096 + 1 * k.val = k.val; rw [e1]; omega

/-- The weight vector's block at every point is the whole argument. -/
theorem weights_block (c : Dev nD) (t : Fin cfg0.N) (k : Fin 4096) :
    (iblk m c 2 t : Vec Ideal S4096 .f32) (ix1 k)
      = (m ((c : Thread nD τ).loc main_arg2) : S4096.Idx → Elt Ideal .f32) (ix1 k) := by
  obtain ⟨-, -, -, -, -, e0, -⟩ := block_indices t
  unfold iblk
  rw [View.read_apply]
  show V m c main_arg2 _ = m (c.tc.loc main_arg2) _
  unfold V
  congr 1
  funext a
  apply Fin.ext
  match a with
  | ⟨0, _⟩ => show win0_2.index t (0 : Fin 1) * 4096 + 1 * k.val = k.val; rw [e0]; omega

/-- WHAT POINT t WRITES BACK is block t of `result`. -/
theorem flushed_eq (c : Dev nD) (t : Fin cfg0.N) :
    (dats m 0 c).flushed 3 t = ((cfg0.win 3).blk t).view.read (Elt Ideal) (result m c) := by
  rw [flushed3]
  unfold out0_3
  simp only [View.ld_unit_zero (S := S4x128x4096) zeros3, View.ld_unit_zero (S := S128x4096) zeros2,
    View.ld_unit_zero (S := S4096) zeros1]
  obtain ⟨-, -, -, -, -, -, e0, e1⟩ := block_indices t
  show (fun j : S128x4096.Idx => View.canon [⟨r0_1, k0_pay1 (iblk m c 0 t) (iblk m c 1 t) (iblk m c 2 t)⟩] j)
    = fun j : S128x4096.Idx => result m c (((cfg0.win 3).blk t).view.emb j)
  funext j
  obtain ⟨r, k, rfl⟩ : ∃ (r : Fin 128) (k : Fin 4096), j = ix2 r k := ⟨j 0, j 1, eq_ix2 j⟩
  refine (canon3_eq (F := Ideal) (iblk m c 0 t) (iblk m c 1 t) (iblk m c 2 t) (ix2 r k)).trans ?_
  refine (Block.stored_apply (iblk m c 0 t) (iblk m c 1 t) (iblk m c 2 t)
    (m ((c : Thread nD τ).loc main_arg0)) (m ((c : Thread nD τ).loc main_arg1)) (m ((c : Thread nD τ).loc main_arg2))
    (128 * t.val) (rows_in t) (partials_block m c t) (residual_block m c t) (weights_block m c t) r k).trans ?_
  show normed _ _ _ (ix2 (Block.row (128 * t.val) (rows_in t) r) k) = normed _ _ _ (((cfg0.win 3).blk t).view.emb (ix2 r k))
  congr 1
  funext a
  apply Fin.ext
  match a with
  | ⟨0, _⟩ => show 128 * t.val + r.val = win0_3.index t (0 : Fin 2) * 128 + 1 * r.val; rw [e0]; omega
  | ⟨1, _⟩ => show k.val = win0_3.index t (1 : Fin 2) * 4096 + 1 * k.val; rw [e1]; omega

/-- An index of the result array is in point t's block iff each coordinate is in the block's range on its axis. -/
theorem mem_block (t : Fin cfg0.N) (i : S8192x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v0).slice (win0_3.rect t)).set ↔ _
  rw [View.set_slice_whole, Rect.mem_set_unit]
  exact Iff.rfl

/-- THE COVER: row r of the result lies in the block of point r / 128, and every point writes back. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hq : (i 0).val / 128 < cfg0.N := by
    show (i 0).val / 128 < grid0.N
    rw [N_0]; omega
  obtain ⟨-, -, -, -, -, -, e0, e1⟩ := block_indices ⟨(i 0).val / 128, hq⟩
  refine ⟨⟨(i 0).val / 128, hq⟩, flush0_3 _, ?_⟩
  rw [mem_block]
  intro a
  match a with
  | ⟨0, _⟩ =>
    show win0_3.index ⟨(i 0).val / 128, hq⟩ (0 : Fin 2) * 128 ≤ (i 0).val
      ∧ (i 0).val < win0_3.index ⟨(i 0).val / 128, hq⟩ (0 : Fin 2) * 128 + 128
    rw [e0]; show (i 0).val / 128 * 128 ≤ (i 0).val ∧ (i 0).val < (i 0).val / 128 * 128 + 128; omega
  | ⟨1, _⟩ =>
    show win0_3.index ⟨(i 0).val / 128, hq⟩ (1 : Fin 2) * 4096 ≤ (i 1).val
      ∧ (i 1).val < win0_3.index ⟨(i 0).val / 128, hq⟩ (1 : Fin 2) * 4096 + 4096
    rw [e1]; omega

/-- THE ARRAY after the run is `result`. -/
theorem final (c : Dev nD) : (dats m 0 c).arrAt 3 cfg0.N = result m c :=
  (dats m 0 c).arrAt_eq_of_cover 3 (result m c) (fun t _ => flushed_eq m c t) cover

/-- The kernel's run, read: the result array at `normed` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.AddRmsNorm.Kernel

end
-- ==== Proof.lean ====
/-
  The kernel and its reference compute one function of their three arguments over the extended reals.

  For hs : [4, 8192, 4096], res : [8192, 4096], w : [4096], both form x = (∑ p < 4, hs(p, ·, ·)) + res, scale each
  row of x by rsqrt of its mean square plus ε, and multiply column c by w(c) (Proof/Spec.lean: `normed`). The
  reference does so on whole arrays (Proof/RefSpec.lean reads its operations one at a time at an index); the kernel
  does so on 64 blocks of 128 rows, and since a row's mean square only needs that row, each block is those rows of
  `normed` (Proof/Block.lean, over variables; Proof/KernelValue.lean at a grid point, then the 64 blocks cover the
  result). The two programs apply the same operations in the same order with the same constant words, so no
  algebraic law beyond "a sum started from 0 is the sum" joins them, and the precondition is never opened.

  The three frames are the generated ones (the reference's is its generated run with the result dropped); the
  idealization rewrote nothing, so `preserves` is `True`.
-/
import proofs.«101988_j12592844112269_2_alg».proof.Defs
import proofs.«101988_j12592844112269_2_alg».proof.Proof.Gen.Kernel
import proofs.«101988_j12592844112269_2_alg».proof.Proof.Gen.Kernel.Skeleton
import proofs.«101988_j12592844112269_2_alg».proof.Proof.Gen.Kernel.Launch
import proofs.«101988_j12592844112269_2_alg».proof.Proof.Gen.Kernel.Points
import proofs.«101988_j12592844112269_2_alg».proof.Proof.Gen.Kernel.Frame
import proofs.«101988_j12592844112269_2_alg».proof.Proof.Gen.KernelIdeal
import proofs.«101988_j12592844112269_2_alg».proof.Proof.Gen.KernelIdeal.Skeleton
import proofs.«101988_j12592844112269_2_alg».proof.Proof.Gen.KernelIdeal.Launch
import proofs.«101988_j12592844112269_2_alg».proof.Proof.Gen.KernelIdeal.Points
import proofs.«101988_j12592844112269_2_alg».proof.Proof.Gen.KernelIdeal.Frame
import proofs.«101988_j12592844112269_2_alg».proof.Proof.Gen.ReferenceIdeal
import proofs.«101988_j12592844112269_2_alg».proof.Proof.Gen.Pre_finite_inputs
import proofs.«101988_j12592844112269_2_alg».proof.Proof.Gen.KernelIdeal.Value
import proofs.«101988_j12592844112269_2_alg».proof.Proof.Gen.ReferenceIdeal.Run
import proofs.«101988_j12592844112269_2_alg».proof.Proof.Gen.ReferenceIdeal.Read
import proofs.«101988_j12592844112269_2_alg».proof.Proof.Spec
import proofs.«101988_j12592844112269_2_alg».proof.Proof.RefSpec
import proofs.«101988_j12592844112269_2_alg».proof.Proof.Block
import proofs.«101988_j12592844112269_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `normed` of arguments that agree. -/
theorem algebraic : Cert.algebraic_KernelIdeal_ReferenceIdeal := by
  intro m ρ m' ρ' _ hagree
  refine ⟨fun c => Cert.AddRmsNorm.Kernel.result m c, Cert.AddRmsNorm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.AddRmsNorm.Ref.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
